-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3x128 : Shape := ⟨3, ![65536, 3, 128]⟩
abbrev S12x3 : Shape := ⟨2, ![12, 3]⟩
abbrev S12 : Shape := ⟨1, ![12]⟩
abbrev S_ : Shape := ⟨0, ![]⟩

class Facts : Prop where
  bcast_S_S65536x3x128 : S_.BroadcastsInDim S65536x3x128 (![] : Fin 0 → Fin S65536x3x128.rank)
  reducesTo_S65536x3x128_S_d0_1_2 : S65536x3x128.ReducesTo [0, 1, 2] S_
  h_S_ : 0 < S_.numel
  bcast_S_S12x3 : S_.BroadcastsInDim S12x3 (![] : Fin 0 → Fin S12x3.rank)
  reducesTo_S12x3_S_d0_1 : S12x3.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S12 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  main_v23

def fn {F : FTy → Type} [FloatOps F] (main_arg0 : FVec F S65536x3x128 .f32) (main_arg1 : FVec F S12x3 .f32) (main_arg2 : FVec F S12x3 .f32) (main_arg3 : FVec F S12 .f32) (main_arg4 : FVec F S12 .f32) : IVec S_ 1 :=
  let main_v0 : FVec F S65536x3x128 .f32 := Host.absf main_arg0
  let main_cst : FVec F S_ .f32 := constant S_ .f32 0x7F800000#32
  let main_v1 : FVec F S65536x3x128 .f32 := broadcastInDim S65536x3x128 ![] bcast_S_S65536x3x128 main_cst
  let main_v2 : IVec S65536x3x128 1 := cmpf .olt main_v0 main_v1
  let main_c : IVec S_ 1 := constantI S_ 1 1#1
  let main_v3 : IVec S_ 1 := (fun x v => Host.reduce IntOp.andi x v reducesTo_S65536x3x128_S_d0_1_2 h_S_) main_v2 main_c
  let main_v4 : FVec F S12x3 .f32 := Host.absf main_arg1
  let main_cst_0 : FVec F S_ .f32 := constant S_ .f32 0x7F800000#32
  let main_v5 : FVec F S12x3 .f32 := broadcastInDim S12x3 ![] bcast_S_S12x3 main_cst_0
  let main_v6 : IVec S12x3 1 := cmpf .olt main_v4 main_v5
  let main_c_1 : IVec S_ 1 := constantI S_ 1 1#1
  let main_v7 : IVec S_ 1 := (fun x v => Host.reduce IntOp.andi x v reducesTo_S12x3_S_d0_1 h_S_) main_v6 main_c_1
  let main_v8 : IVec S_ 1 := andi main_v3 main_v7
  let main_v9 : FVec F S12x3 .f32 := Host.absf main_arg2
  let main_cst_2 : FVec F S_ .f32 := constant S_ .f32 0x7F800000#32
  let main_v10 : FVec F S12x3 .f32 := broadcastInDim S12x3 ![] bcast_S_S12x3 main_cst_2
  let main_v11 : IVec S12x3 1 := cmpf .olt main_v9 main_v10
  let main_c_3 : IVec S_ 1 := constantI S_ 1 1#1
  let main_v12 : IVec S_ 1 := (fun x v => Host.reduce IntOp.andi x v reducesTo_S12x3_S_d0_1 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_v13 main_v16
-- ==== Kernel.lean ====
abbrev S65536x3x128 : Shape := ⟨3, ![65536, 3, 128]⟩
abbrev S12x3 : Shape := ⟨2, ![12, 3]⟩
abbrev S12 : Shape := ⟨1, ![12]⟩
abbrev S3x3 : Shape := ⟨2, ![3, 3]⟩
abbrev S3 : Shape := ⟨1, ![3]⟩
abbrev S3x1 : Shape := ⟨2, ![3, 1]⟩
abbrev S1024x3x128 : Shape := ⟨3, ![1024, 3, 128]⟩
abbrev S1024x1x128 : Shape := ⟨3, ![1024, 1, 128]⟩
abbrev S1024x128 : Shape := ⟨2, ![1024, 128]⟩
abbrev S1x1 : Shape := ⟨2, ![1, 1]⟩

abbrev nBuf : Space → Nat
  | .hbm => 16
  | .vmem => 10
  | .smem => 0
  | _ => 0

abbrev bufTy : (tb : Table) → Fin (tcTables nBuf tb) → BufTy
  | .hbm, ⟨0, _⟩ => ⟨S65536x3x128, .f32⟩
  | .hbm, ⟨1, _⟩ => ⟨S12x3, .f32⟩
  | .hbm, ⟨2, _⟩ => ⟨S12x3, .f32⟩
  | .hbm, ⟨3, _⟩ => ⟨S12, .f32⟩
  | .hbm, ⟨4, _⟩ => ⟨S12, .f32⟩
  | .hbm, ⟨5, _⟩ => ⟨S12, .f32⟩
  | .hbm, ⟨6, _⟩ => ⟨S3x3, .f32⟩
  | .hbm, ⟨7, _⟩ => ⟨S3x3, .f32⟩
  | .hbm, ⟨8, _⟩ => ⟨S3x3, .f32⟩
  | .hbm, ⟨9, _⟩ => ⟨S3, .f32⟩
  | .hbm, ⟨10, _⟩ => ⟨S3x1, .f32⟩
  | .hbm, ⟨11, _⟩ => ⟨S3, .f32⟩
  | .hbm, ⟨12, _⟩ => ⟨S3x1, .f32⟩
  | .hbm, ⟨13, _⟩ => ⟨S3, .f32⟩
  | .hbm, ⟨14, _⟩ => ⟨S3x1, .f32⟩
  | .hbm, ⟨15, _⟩ => ⟨S65536x3x128, .f32⟩
  | .local _ .vmem, ⟨0, _⟩ => ⟨S1024x3x128, .f32⟩
  | .local _ .vmem, ⟨1, _⟩ => ⟨S1024x3x128, .f32⟩
  | .local _ .vmem, ⟨2, _⟩ => ⟨S3x3, .f32⟩
  | .local _ .vmem, ⟨3, _⟩ => ⟨S3x3, .f32⟩
  | .local _ .vmem, ⟨4, _⟩ => ⟨S3x3, .f32⟩
  | .local _ .vmem, ⟨5, _⟩ => ⟨S3x1, .f32⟩
  | .local _ .vmem, ⟨6, _⟩ => ⟨S3x1, .f32⟩
  | .local _ .vmem, ⟨7, _⟩ => ⟨S3x1, .f32⟩
  | .local _ .vmem, ⟨8, _⟩ => ⟨S1024x3x128, .f32⟩
  | .local _ .vmem, ⟨9, _⟩ => ⟨S1024x3x128, .f32⟩
  | _, _ => ⟨S65536x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S12x3_S3x3_0_0 : S12x3.Slices ![0, 0] S3x3
  slices_S12x3_S3x3_6_0 : S12x3.Slices ![6, 0] S3x3
  slices_S12x3_S3x3_9_0 : S12x3.Slices ![9, 0] S3x3
  slices_S12_S3_0 : S12.Slices ![0] S3
  shapeCasts_S3_S3x1 : S3.ShapeCasts S3x1
  slices_S12_S3_6 : S12.Slices ![6] S3
  slices_S12_S3_9 : S12.Slices ![9] S3
  inb_S1024x3x128_S1024x3x128_0_0_0 : ∀ a, (![0, 0, 0] : Fin 3 → Nat) a + S1024x3x128.size a ≤ S1024x3x128.size a
  h_S1024x3x128 : 0 < S1024x3x128.numel
  slices_S1024x3x128_o0_0_0_S1024x1x128 : S1024x3x128.Slices ![0, 0, 0] S1024x1x128
  shapeCasts_S1024x1x128_S1024x128 : S1024x1x128.ShapeCasts S1024x128
  slices_S1024x3x128_o0_1_0_S1024x1x128 : S1024x3x128.Slices ![0, 1, 0] S1024x1x128
  slices_S1024x3x128_o0_2_0_S1024x1x128 : S1024x3x128.Slices ![0, 2, 0] S1024x1x128
  inb_S3x3_S3x3_0_0 : ∀ a, (![0, 0] : Fin 2 → Nat) a + S3x3.size a ≤ S3x3.size a
  h_S3x3 : 0 < S3x3.numel
  shapeCasts_S3x3_S3x3 : S3x3.ShapeCasts S3x3
  inb_S3x1_S3x1_0_0 : ∀ a, (![0, 0] : Fin 2 → Nat) a + S3x1.size a ≤ S3x1.size a
  h_S3x1 : 0 < S3x1.numel
  shapeCasts_S3x1_S3x1 : S3x1.ShapeCasts S3x1
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x1_o0_0_S1x1 : S3x1.Slices ![0, 0] S1x1
  inb_S1024x3x128_S1024x1x128_0_0_0 : ∀ a, (![0, 0, 0] : Fin 3 → Nat) a + S1024x1x128.size a ≤ S1024x3x128.size a
  h_S1024x1x128 : 0 < S1024x1x128.numel
  shapeCasts_S1024x128_S1024x1x128 : S1024x128.ShapeCasts S1024x1x128
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x1_o1_0_S1x1 : S3x1.Slices ![1, 0] S1x1
  inb_S1024x3x128_S1024x1x128_0_1_0 : ∀ a, (![0, 1, 0] : Fin 3 → Nat) a + S1024x1x128.size a ≤ S1024x3x128.size a
  slices_S3x3_o2_0_S1x1 : S3x3.Slices ![2, 0] S1x1
  slices_S3x3_o2_1_S1x1 : S3x3.Slices ![2, 1] S1x1
  slices_S3x3_o2_2_S1x1 : S3x3.Slices ![2, 2] S1x1
  slices_S3x1_o2_0_S1x1 : S3x1.Slices ![2, 0] S1x1
  inb_S1024x3x128_S1024x1x128_0_2_0 : ∀ a, (![0, 2, 0] : Fin 3 → Nat) a + S1024x1x128.size a ≤ S1024x3x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3x128.size a ≤ S65536x3x128.size a
  hwx0_0 : ∀ i : grid0.Coords, EltTy.bits .f32 = 32 ∨ (Rect.block (s := S65536x3x128) S1024x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3.size a ≤ S3x3.size a
  hwx0_1 : ∀ i : grid0.Coords, EltTy.bits .f32 = 32 ∨ (Rect.block (s := S3x3) S3x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x3.size a ≤ S3x3.size a
  hwx0_2 : ∀ i : grid0.Coords, EltTy.bits .f32 = 32 ∨ (Rect.block (s := S3x3) S3x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1.size a ≤ S3x1.size a
  hwx0_4 : ∀ i : grid0.Coords, EltTy.bits .f32 = 32 ∨ (Rect.block (s := S3x1) S3x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1.size a ≤ S3x1.size a
  hwx0_5 : ∀ i : grid0.Coords, EltTy.bits .f32 = 32 ∨ (Rect.block (s := S3x1) S3x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x3x128.size a ≤ S65536x3x128.size a
  hwx0_7 : ∀ i : grid0.Coords, EltTy.bits .f32 = 32 ∨ (Rect.block (s := S65536x3x128) S1024x3x128.size (cc0_transform_7 i) (hinb0_7 i)).WholeWords (EltTy.packing .f32)

variable [Facts₀]

abbrev win0_0 : Pipeline.Window sig grid0 :=
  Pipeline.Window.ofSpec (Memref.whole main_arg0) S1024x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S3x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S3x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x3x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x3x128 : Shape := ⟨3, ![65536, 3, 128]⟩
abbrev S12x3 : Shape := ⟨2, ![12, 3]⟩
abbrev S12 : Shape := ⟨1, ![12]⟩
abbrev S65536x128x3 : Shape := ⟨3, ![65536, 128, 3]⟩
abbrev S65536x128x12 : Shape := ⟨3, ![65536, 128, 12]⟩
abbrev S1x1x12 : Shape := ⟨3, ![1, 1, 12]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S65536x3x128, .f32⟩
  | .hbm, ⟨1, _⟩ => ⟨S12x3, .f32⟩
  | .hbm, ⟨2, _⟩ => ⟨S12x3, .f32⟩
  | .hbm, ⟨3, _⟩ => ⟨S12, .f32⟩
  | .hbm, ⟨4, _⟩ => ⟨S12, .f32⟩
  | .hbm, ⟨5, _⟩ => ⟨S65536x128x3, .f32⟩
  | .hbm, ⟨6, _⟩ => ⟨S65536x128x12, .f32⟩
  | .hbm, ⟨7, _⟩ => ⟨S1x1x12, .f32⟩
  | .hbm, ⟨8, _⟩ => ⟨S65536x128x12, .f32⟩
  | .hbm, ⟨9, _⟩ => ⟨S65536x128x12, .f32⟩
  | .hbm, ⟨10, _⟩ => ⟨S1x1x12, .f32⟩
  | .hbm, ⟨11, _⟩ => ⟨S65536x128x12, .f32⟩
  | .hbm, ⟨12, _⟩ => ⟨S65536x128x12, .f32⟩
  | .hbm, ⟨13, _⟩ => ⟨S65536x128x3, .f32⟩
  | .hbm, ⟨14, _⟩ => ⟨S65536x128x3, .f32⟩
  | .hbm, ⟨15, _⟩ => ⟨S65536x128x3, .f32⟩
  | .hbm, ⟨16, _⟩ => ⟨S65536x128x3, .f32⟩
  | .hbm, ⟨17, _⟩ => ⟨S65536x128x3, .f32⟩
  | .hbm, ⟨18, _⟩ => ⟨S65536x128x3, .f32⟩
  | .hbm, ⟨19, _⟩ => ⟨S_, .f32⟩
  | .hbm, ⟨20, _⟩ => ⟨S65536x128x3, .f32⟩
  | .hbm, ⟨21, _⟩ => ⟨S65536x128x3, .f32⟩
  | .hbm, ⟨22, _⟩ => ⟨S_, .f32⟩
  | .hbm, ⟨23, _⟩ => ⟨S65536x128x3, .f32⟩
  | .hbm, ⟨24, _⟩ => ⟨S65536x128x3, .f32⟩
  | .hbm, ⟨25, _⟩ => ⟨S65536x128x3, .f32⟩
  | .hbm, ⟨26, _⟩ => ⟨S65536x128x3, .f32⟩
  | .hbm, ⟨27, _⟩ => ⟨S65536x128x3, .f32⟩
  | .hbm, ⟨28, _⟩ => ⟨S_, .f32⟩
  | .hbm, ⟨29, _⟩ => ⟨S65536x128x3, .f32⟩
  | .hbm, ⟨30, _⟩ => ⟨S65536x128x3, .f32⟩
  | .hbm, ⟨31, _⟩ => ⟨S_, .f32⟩
  | .hbm, ⟨32, _⟩ => ⟨S65536x128x3, .f32⟩
  | .hbm, ⟨33, _⟩ => ⟨S65536x128x3, .f32⟩
  | .hbm, ⟨34, _⟩ => ⟨S65536x128x3, .f32⟩
  | .hbm, ⟨35, _⟩ => ⟨S65536x128x3, .f32⟩
  | .hbm, ⟨36, _⟩ => ⟨S65536x128x3, .f32⟩
  | .hbm, ⟨37, _⟩ => ⟨S65536x3x128, .f32⟩
  | _, _ => ⟨S65536x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  transposes_S65536x3x128_S65536x128x3_0_2_1 : S65536x3x128.Transposes [0, 2, 1] S65536x128x3
  bcast_S12_S1x1x12_2 : S12.BroadcastsInDim S1x1x12 (![2] : Fin 1 → Fin S1x1x12.rank)
  bcast_S1x1x12_S65536x128x12_0_1_2 : S1x1x12.BroadcastsInDim S65536x128x12 (![0, 1, 2] : Fin 3 → Fin S65536x128x12.rank)
  slices_S65536x128x12_S65536x128x3_0_0_0 : S65536x128x12.Slices ![0, 0, 0] S65536x128x3
  slices_S65536x128x12_S65536x128x3_0_0_3 : S65536x128x12.Slices ![0, 0, 3] S65536x128x3
  slices_S65536x128x12_S65536x128x3_0_0_6 : S65536x128x12.Slices ![0, 0, 6] S65536x128x3
  slices_S65536x128x12_S65536x128x3_0_0_9 : S65536x128x12.Slices ![0, 0, 9] S65536x128x3
  bcast_S_S65536x128x3 : S_.BroadcastsInDim S65536x128x3 (![] : Fin 0 → Fin S65536x128x3.rank)
  transposes_S65536x128x3_S65536x3x128_0_2_1 : S65536x128x3.Transposes [0, 2, 1] S65536x3x128
  dot_S65536x128x3_S12x3_S65536x128x12_2_1_01_0_n_n_wf : DotDims.WF S65536x128x3 S12x3 S65536x128x12 [2] [1] [0, 1] [0] [] []

variable [Facts₀]

def dot_S65536x128x3_S12x3_S65536x128x12_2_1_01_0_n_n : DotDims S65536x128x3 S12x3 S65536x128x12 where
  lhsContracting := [2]
  rhsContracting := [1]
  lhsNonContracting := [0, 1]
  rhsNonContracting := [0]
  lhsBatch := []
  rhsBatch := []
  wf := dot_S65536x128x3_S12x3_S65536x128x12_2_1_01_0_n_n_wf

class Facts : Prop extends Facts₀ where

variable [Facts]
-- ==== Proof.Cell.lean ====
/-
  One LSTM cell step from a zero state, as a function of real (extended real) numbers, and the array it
  produces position by position.

  With h0 = c0 = 0 the recurrent weights contribute nothing and the forget gate multiplies zero, so at batch
  row b, hidden unit c and time position t the cell is
      h = σ(o) · tanh(σ(i) · tanh(g)),
  where each of the three pre-activations i, g, o is an affine form of the three input channels at (b, ·, t):
      w₀·x₀ + w₁·x₁ + w₂·x₂ + (b_ih + b_hh),
  the weights and biases taken from row c (input gate), 6 + c (cell gate) and 9 + c (output gate) of the
  stacked [12, 3] matrix and the two [12] bias vectors. σ is the logistic function 1 / (1 + e^(-z)).
-/
import Idealize.ShloMosaic.PureOps.Ideal
import Idealize.ShloMosaic.Lib.ValueIdx

noncomputable section

namespace Cert.Lstm

open Idealize.ShloMosaic Idealize.ShloMosaic.ValueIdx

/-- The input and the result: 65536 rows of 3 channels (hidden units) by 128 positions. -/
abbrev SX : Shape := ⟨3, ![65536, 3, 128]⟩
/-- The stacked gate weights: 12 rows (input, forget, cell, output gates, 3 units each) by 3 channels. -/
abbrev SW : Shape := ⟨2, ![12, 3]⟩
/-- A stacked gate bias. -/
abbrev SB : Shape := ⟨1, ![12]⟩

/-- A gate's pre-activation: the affine form of the three channels, summed left to right, plus the bias. -/
def gate (w0 w1 w2 b x0 x1 x2 : EReal) : EReal := w0 * x0 + w1 * x1 + w2 * x2 + b

/-- The cell's output from the three pre-activations. -/
def cell (ig gg og : EReal) : EReal :=
  Ideal.logistic og * Ideal.tanh (Ideal.logistic ig * Ideal.tanh gg)

/-- Rows of the stacked matrix that belong to hidden unit `c`: input gate, cell gate, output gate. -/
def rowI (c : Fin 3) : Fin 12 := ⟨c.val, by omega⟩
def rowG (c : Fin 3) : Fin 12 := ⟨6 + c.val, by omega⟩
def rowO (c : Fin 3) : Fin 12 := ⟨9 + c.val, by omega⟩

/-- Row `r`'s pre-activation at batch row `b` and position `t`. -/
def pre (x : SX.Idx → EReal) (W : SW.Idx → EReal) (bi bh : SB.Idx → EReal) (r : Fin 12) (b : Fin 65536) (t : Fin 128) : EReal :=
  gate (W (ix2 r (0 : Fin 3))) (W (ix2 r (1 : Fin 3))) (W (ix2 r (2 : Fin 3))) (bi (ix1 r) + bh (ix1 r))
    (x (ix3 b (0 : Fin 3) t)) (x (ix3 b (1 : Fin 3) t)) (x (ix3 b (2 : Fin 3) t))

/-- The whole result array, position by position. -/
def G (x : SX.Idx → EReal) (W : SW.Idx → EReal) (bi bh : SB.Idx → EReal) : SX.Idx → EReal := fun i =>
  cell (pre x W bi bh (rowI (i 1)) (i 0) (i 2)) (pre x W bi bh (rowG (i 1)) (i 0) (i 2)) (pre x W bi bh (rowO (i 1)) (i 0) (i 2))

/-- A contraction over the three channels with the factors in the other order, the two biases added one after
    the other, is the same pre-activation: multiplication commutes and addition is associative on the extended
    reals, infinite values included. -/
theorem gate_of_sum (f g : Fin 3 → EReal) (b b' : EReal) :
    (∑ k : Fin 3, f k * g k) + b + b' = gate (g 0) (g 1) (g 2) (b + b') (f 0) (f 1) (f 2) := by
  unfold gate
  rw [Fin.sum_univ_three, mul_comm (f 0), mul_comm (f 1), mul_comm (f 2),
    add_assoc (g 0 * f 0 + g 1 * f 1 + g 2 * f 2)]

end Cert.Lstm

end
-- ==== Proof.RefValue.lean ====
/-
  The reference, read position by position: it transposes the input to (row, position, channel), contracts the
  channel against every row of the stacked weight matrix, adds the two biases one after the other, cuts the
  twelve gate columns into the four gates, applies 1 / (1 + e^(-z)) and tanh, and transposes back. At result
  index (b, c, t) that is the cell of `Cert.Lstm.G`: the contraction over three channels is the three-term
  affine form with the factors commuted, and (s + b_ih) + b_hh = s + (b_ih + b_hh).
-/
import proofs.«105344_j25434796327365_2_alg».proof.Proof.Gen.ReferenceIdeal.Read
import proofs.«105344_j25434796327365_2_alg».proof.Proof.Cell
import Idealize.ShloMosaic.Lib.IdealHost

noncomputable section

namespace Cert.ReferenceIdeal.RefValue

open Cert.ReferenceIdeal Cert.ReferenceIdeal.Read Idealize.ShloMosaic Idealize.ShloMosaic.ValueIdx

variable (x : (⟨S65536x3x128, .f32⟩ : BufTy).Contents (Elt Ideal)) (W : (⟨S12x3, .f32⟩ : BufTy).Contents (Elt Ideal))
  (bi bh : (⟨S12, .f32⟩ : BufTy).Contents (Elt Ideal))

/-- The twelve gate columns before they are cut: column `r` at (b, t) is row `r`'s pre-activation. -/
theorem gates_apply (b : Fin 65536) (t : Fin 128) (r : Fin 12) :
    val_main_v7 (F := Ideal) x W bi bh (ix3 b t r) = Cert.Lstm.pre x W bi bh r b t := by
  have e0 : ∀ k : Fin 3, idx_main_v0 (lidx_main_v1 (ix3 b t r) k) = ix3 b k t := fun k => funext fun a => Fin.ext (by
    match a with | ⟨0, _⟩ => rfl | ⟨1, _⟩ => rfl | ⟨2, _⟩ => rfl)
  have e1 : ∀ k : Fin 3, ridx_main_v1 (ix3 b t r) k = ix2 r k := fun k => funext fun a => Fin.ext (by
    match a with | ⟨0, _⟩ => rfl | ⟨1, _⟩ => rfl)
  have e2 : idx_main_v2 (idx_main_v3 (ix3 b t r)) = ix1 r := funext fun a => Fin.ext (by
    match a with | ⟨0, _⟩ => rfl)
  have e3 : idx_main_v5 (idx_main_v6 (ix3 b t r)) = ix1 r := funext fun a => Fin.ext (by
    match a with | ⟨0, _⟩ => rfl)
  rw [val_main_v7_apply, val_main_v4_apply, val_main_v1_apply, val_main_v3_apply, val_main_v2_apply, val_main_v6_apply,
    val_main_v5_apply]
  simp only [val_main_v0_apply, e0, e1, e2, e3, Ideal.addf_def]
  exact Cert.Lstm.gate_of_sum (fun k => x (ix3 b k t)) (fun k => W (ix2 r k)) _ _

/-- The reference's result is the cell array. -/
theorem result_eq : val_main_v28 (F := Ideal) x W bi bh = Cert.Lstm.G x W bi bh := by
  funext i
  obtain ⟨b, c, t, rfl⟩ : ∃ (b : Fin 65536) (c : Fin 3) (t : Fin 128), i = ix3 b c t := ⟨i 0, i 1, i 2, eq_ix3 i⟩
  have eI : idx_main_v8 (idx_main_v28 (ix3 b c t)) = ix3 b t (Cert.Lstm.rowI c) := funext fun a => Fin.ext (by
    match a with | ⟨0, _⟩ => rfl | ⟨1, _⟩ => rfl | ⟨2, _⟩ => rfl)
  have eG : idx_main_v10 (idx_main_v28 (ix3 b c t)) = ix3 b t (Cert.Lstm.rowG c) := funext fun a => Fin.ext (by
    match a with | ⟨0, _⟩ => rfl | ⟨1, _⟩ => rfl | ⟨2, _⟩ => rfl)
  have eO : idx_main_v11 (idx_main_v28 (ix3 b c t)) = ix3 b t (Cert.Lstm.rowO c) := funext fun a => Fin.ext (by
    match a with | ⟨0, _⟩ => rfl | ⟨1, _⟩ => rfl | ⟨2, _⟩ => rfl)
  simp only [val_main_v28_apply, val_main_v27_apply, val_main_v26_apply, val_main_v25_apply, val_main_v24_apply,
    val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v8_apply, val_main_cst_apply, val_main_cst_0_apply, val_main_cst_1_apply,
    val_main_cst_2_apply, eI, eG, eO, gates_apply]
  simp only [Ideal.mulf_def, Ideal.hostDivf_def, Ideal.addf_def, Ideal.hostUnary_exp_def, Ideal.hostNegf_def, Ideal.negf_def,
    Ideal.hostUnary_tanh_def, Ideal.ofBits_def, Ideal.ofBits_one_f32]
  rfl

end Cert.ReferenceIdeal.RefValue

end
-- ==== Proof.Body.lean ====
/-
  What the kernel body leaves in an output block, position by position.

  The body loads a block of 1024 rows of the input (3 channels by 128 positions) and the three 3×3 weight
  slices and three 3×1 bias columns of the input, cell and output gates. For each hidden unit c = 0, 1, 2 it
  forms the three pre-activations as scalar-times-channel sums, applies the logistic function and tanh, and
  stores the unit's 1024×128 result as the slab (·, c, ·) of the output block. The three slabs tile the
  block, so the block after the body is one function of the loaded values: at (b, c, t) the cell of the
  pre-activations built from row c of each weight slice and bias column and the three channels at (b, ·, t).
-/
import proofs.«105344_j25434796327365_2_alg».proof.Proof.Gen.KernelIdeal.Frame
import proofs.«105344_j25434796327365_2_alg».proof.Proof.Cell
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Lstm

/-! ## The loaded values read at an index -/

/-- Channel 0 of the loaded block, as a 1024×128 matrix. -/
theorem chan0 (v0 : Vec Ideal S1024x3x128 .f32) (b : Fin 1024) (t : Fin 128) :
    k0_pay2 v0 (ix2 b t) = v0 (ix3 b (0 : Fin 3) t) := by
  unfold k0_pay2
  refine (shapeCast_apply _ shapeCasts_S1024x1x128_S1024x128 (ix2 b t) (ix3 b (0 : Fin 1) t) ?_).trans ?_
  · rw [Shape.rowMajor_val_three, Shape.rowMajor_val_two]
    show (b.val * 1 + 0) * 128 + t.val = b.val * 128 + t.val
    omega
  · exact extractStridedSlice_apply ![0, 0, 0] v0 slices_S1024x3x128_o0_0_0_S1024x1x128 (ix3 b (0 : Fin 1) t) (ix3 b (0 : Fin 3) t) (fun a => by
      match a with
      | ⟨0, _⟩ => show b.val = 0 + b.val; omega
      | ⟨1, _⟩ => show 0 = 0 + 0; omega
      | ⟨2, _⟩ => show t.val = 0 + t.val; omega)

/-- Channel 1. -/
theorem chan1 (v0 : Vec Ideal S1024x3x128 .f32) (b : Fin 1024) (t : Fin 128) :
    k0_pay3 v0 (ix2 b t) = v0 (ix3 b (1 : Fin 3) t) := by
  unfold k0_pay3
  refine (shapeCast_apply _ shapeCasts_S1024x1x128_S1024x128 (ix2 b t) (ix3 b (0 : Fin 1) t) ?_).trans ?_
  · rw [Shape.rowMajor_val_three, Shape.rowMajor_val_two]
    show (b.val * 1 + 0) * 128 + t.val = b.val * 128 + t.val
    omega
  · exact extractStridedSlice_apply ![0, 1, 0] v0 slices_S1024x3x128_o0_1_0_S1024x1x128 (ix3 b (0 : Fin 1) t) (ix3 b (1 : Fin 3) t) (fun a => by
      match a with
      | ⟨0, _⟩ => show b.val = 0 + b.val; omega
      | ⟨1, _⟩ => show 1 = 1 + 0; omega
      | ⟨2, _⟩ => show t.val = 0 + t.val; omega)

/-- Channel 2. -/
theorem chan2 (v0 : Vec Ideal S1024x3x128 .f32) (b : Fin 1024) (t : Fin 128) :
    k0_pay4 v0 (ix2 b t) = v0 (ix3 b (2 : Fin 3) t) := by
  unfold k0_pay4
  refine (shapeCast_apply _ shapeCasts_S1024x1x128_S1024x128 (ix2 b t) (ix3 b (0 : Fin 1) t) ?_).trans ?_
  · rw [Shape.rowMajor_val_three, Shape.rowMajor_val_two]
    show (b.val * 1 + 0) * 128 + t.val = b.val * 128 + t.val
    omega
  · exact extractStridedSlice_apply ![0, 2, 0] v0 slices_S1024x3x128_o0_2_0_S1024x1x128 (ix3 b (0 : Fin 1) t) (ix3 b (2 : Fin 3) t) (fun a => by
      match a with
      | ⟨0, _⟩ => show b.val = 0 + b.val; omega
      | ⟨1, _⟩ => show 2 = 2 + 0; omega
      | ⟨2, _⟩ => show t.val = 0 + t.val; omega)

/-- The one entry of a 1×1 cut of a 3×3 matrix at offsets (r, k) is the matrix's entry (r, k). -/
theorem entry33 (w : FVec Ideal S3x3 .f32) (off : Fin 2 → Nat) (h : S3x3.Slices off S1x1)
    (hp : ∀ a, (![0, 0] : Fin 2 → Nat) a < S1x1.size a) (r k : Fin 3) (h0 : off 0 = r.val) (h1 : off 1 = k.val) :
    extractAt ![0, 0] (extractStridedSlice S1x1 off w h) hp = w (ix2 r k) := by
  unfold extractAt
  exact extractStridedSlice_apply off w h (fun a => ⟨(![0, 0] : Fin 2 → Nat) a, hp a⟩) (ix2 r k) (fun a => by
    match a with
    | ⟨0, _⟩ => show r.val = off 0 + 0; omega
    | ⟨1, _⟩ => show k.val = off 1 + 0; omega)

/-- The one entry of a 1×1 cut of a 3×1 column at offsets (r, 0) is the column's entry r. -/
theorem entry31 (w : FVec Ideal S3x1 .f32) (off : Fin 2 → Nat) (h : S3x1.Slices off S1x1)
    (hp : ∀ a, (![0, 0] : Fin 2 → Nat) a < S1x1.size a) (r : Fin 3) (h0 : off 0 = r.val) (h1 : off 1 = 0) :
    extractAt ![0, 0] (extractStridedSlice S1x1 off w h) hp = w (ix2 r (0 : Fin 1)) := by
  unfold extractAt
  exact extractStridedSlice_apply off w h (fun a => ⟨(![0, 0] : Fin 2 → Nat) a, hp a⟩) (ix2 r (0 : Fin 1)) (fun a => by
    match a with
    | ⟨0, _⟩ => show r.val = off 0 + 0; omega
    | ⟨1, _⟩ => show 0 = off 1 + 0; omega)

/-- A 1024×128 matrix recast as the slab [1024, 1, 128], read at (b, 0, t). -/
theorem slab_apply (v : FVec Ideal S1024x128 .f32) (b : Fin 1024) (t : Fin 128) :
    shapeCast S1024x1x128 v shapeCasts_S1024x128_S1024x1x128 (ix3 b (0 : Fin 1) t) = v (ix2 b t) :=
  shapeCast_apply v shapeCasts_S1024x128_S1024x1x128 _ (ix2 b t) (by
    rw [Shape.rowMajor_val_three, Shape.rowMajor_val_two]
    show b.val * 128 + t.val = (b.val * 1 + 0) * 128 + t.val
    omega)

theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl

/-! ## One hidden unit's slab -/

/-- Row `c`'s pre-activation from a 3×3 weight slice, a 3×1 bias column and the block's channels at (b, ·, t). -/
def gateAt (w : Vec Ideal S3x3 .f32) (bv : Vec Ideal S3x1 .f32) (x0 : Vec Ideal S1024x3x128 .f32) (c : Fin 3) (b : Fin 1024) (t : Fin 128) : EReal :=
  gate (w (ix2 c (0 : Fin 3))) (w (ix2 c (1 : Fin 3))) (w (ix2 c (2 : Fin 3))) (bv (ix2 c (0 : Fin 1)))
    (x0 (ix3 b (0 : Fin 3) t)) (x0 (ix3 b (1 : Fin 3) t)) (x0 (ix3 b (2 : Fin 3) t))

/-- The block after the body, position by position. -/
def blockFn (x0 : Vec Ideal S1024x3x128 .f32) (wi wg wo : Vec Ideal S3x3 .f32) (bi bg bo : Vec Ideal S3x1 .f32) : Vec Ideal S1024x3x128 .f32 := fun y =>
  cell (gateAt wi bi x0 (y 1) (y 0) (y 2)) (gateAt wg bg x0 (y 1) (y 0) (y 2)) (gateAt wo bo x0 (y 1) (y 0) (y 2))

variable (x0 : Vec Ideal S1024x3x128 .f32) (wi wg wo : Vec Ideal S3x3 .f32) (bi bg bo : Vec Ideal S3x1 .f32)

/-- Hidden unit 0's slab at (b, 0, t). -/
theorem slab0_apply (b : Fin 1024) (t : Fin 128) :
    k0_pay14 (k0_pay2 x0) (k0_pay3 x0) (k0_pay4 x0) (k0_pay6 wg) (k0_pay7 wo) (k0_pay9 bg) (k0_pay10 bo)
      (k0_pay11 x0 wi bi) (k0_pay12 x0 wg) (k0_pay13 wg) (ix3 b (0 : Fin 1) t)
      = cell (gateAt wi bi x0 0 b t) (gateAt wg bg x0 0 b t) (gateAt wo bo x0 0 b t) := by
  unfold k0_pay14 k0_pay11 k0_pay12 k0_pay13 k0_pay5 k0_pay6 k0_pay7 k0_pay8 k0_pay9 k0_pay10
  rw [slab_apply]
  simp only [shapeCast_self, mulf_apply, addf_apply, broadcast_apply, logistic_apply, tanh_apply, chan0, chan1, chan2,
    entry33 _ _ slices_S3x3_o0_0_S1x1 _ (0 : Fin 3) (0 : Fin 3) rfl rfl,
    entry33 _ _ slices_S3x3_o0_1_S1x1 _ (0 : Fin 3) (1 : Fin 3) rfl rfl,
    entry33 _ _ slices_S3x3_o0_2_S1x1 _ (0 : Fin 3) (2 : Fin 3) rfl rfl,
    entry33 _ _ slices_S3x3_o1_0_S1x1 _ (1 : Fin 3) (0 : Fin 3) rfl rfl,
    entry33 _ _ slices_S3x3_o1_1_S1x1 _ (1 : Fin 3) (1 : Fin 3) rfl rfl,
    entry33 _ _ slices_S3x3_o1_2_S1x1 _ (1 : Fin 3) (2 : Fin 3) rfl rfl,
    entry33 _ _ slices_S3x3_o2_0_S1x1 _ (2 : Fin 3) (0 : Fin 3) rfl rfl,
    entry33 _ _ slices_S3x3_o2_1_S1x1 _ (2 : Fin 3) (1 : Fin 3) rfl rfl,
    entry33 _ _ slices_S3x3_o2_2_S1x1 _ (2 : Fin 3) (2 : Fin 3) rfl rfl,
    entry31 _ _ slices_S3x1_o0_0_S1x1 _ (0 : Fin 3) rfl rfl,
    entry31 _ _ slices_S3x1_o1_0_S1x1 _ (1 : Fin 3) rfl rfl,
    entry31 _ _ slices_S3x1_o2_0_S1x1 _ (2 : Fin 3) rfl rfl]
  rfl

/-- Hidden unit 1's slab at (b, 0, t). -/
theorem slab1_apply (b : Fin 1024) (t : Fin 128) :
    k0_pay16 (k0_pay2 x0) (k0_pay3 x0) (k0_pay4 x0) (k0_pay6 wg) (k0_pay7 wo) (k0_pay9 bg) (k0_pay10 bo)
      (k0_pay15 (k0_pay2 x0) (k0_pay3 x0) (k0_pay4 x0) (k0_pay5 wi) (k0_pay8 bi)) (ix3 b (0 : Fin 1) t)
      = cell (gateAt wi bi x0 1 b t) (gateAt wg bg x0 1 b t) (gateAt wo bo x0 1 b t) := by
  unfold k0_pay16 k0_pay15 k0_pay5 k0_pay6 k0_pay7 k0_pay8 k0_pay9 k0_pay10
  rw [slab_apply]
  simp only [shapeCast_self, mulf_apply, addf_apply, broadcast_apply, logistic_apply, tanh_apply, chan0, chan1, chan2,
    entry33 _ _ slices_S3x3_o0_0_S1x1 _ (0 : Fin 3) (0 : Fin 3) rfl rfl,
    entry33 _ _ slices_S3x3_o0_1_S1x1 _ (0 : Fin 3) (1 : Fin 3) rfl rfl,
    entry33 _ _ slices_S3x3_o0_2_S1x1 _ (0 : Fin 3) (2 : Fin 3) rfl rfl,
    entry33 _ _ slices_S3x3_o1_0_S1x1 _ (1 : Fin 3) (0 : Fin 3) rfl rfl,
    entry33 _ _ slices_S3x3_o1_1_S1x1 _ (1 : Fin 3) (1 : Fin 3) rfl rfl,
    entry33 _ _ slices_S3x3_o1_2_S1x1 _ (1 : Fin 3) (2 : Fin 3) rfl rfl,
    entry33 _ _ slices_S3x3_o2_0_S1x1 _ (2 : Fin 3) (0 : Fin 3) rfl rfl,
    entry33 _ _ slices_S3x3_o2_1_S1x1 _ (2 : Fin 3) (1 : Fin 3) rfl rfl,
    entry33 _ _ slices_S3x3_o2_2_S1x1 _ (2 : Fin 3) (2 : Fin 3) rfl rfl,
    entry31 _ _ slices_S3x1_o0_0_S1x1 _ (0 : Fin 3) rfl rfl,
    entry31 _ _ slices_S3x1_o1_0_S1x1 _ (1 : Fin 3) rfl rfl,
    entry31 _ _ slices_S3x1_o2_0_S1x1 _ (2 : Fin 3) rfl rfl]
  rfl

/-- Hidden unit 2's slab at (b, 0, t). -/
theorem slab2_apply (b : Fin 1024) (t : Fin 128) :
    k0_pay1 (k0_pay2 x0) (k0_pay3 x0) (k0_pay4 x0) (k0_pay6 wg) (k0_pay7 wo) (k0_pay8 bi) (k0_pay9 bg) (k0_pay10 bo)
      (k0_pay17 (k0_pay2 x0) (k0_pay3 x0) (k0_pay5 wi)) (k0_pay18 (k0_pay5 wi)) (ix3 b (0 : Fin 1) t)
      = cell (gateAt wi bi x0 2 b t) (gateAt wg bg x0 2 b t) (gateAt wo bo x0 2 b t) := by
  unfold k0_pay1 k0_pay17 k0_pay18 k0_pay5 k0_pay6 k0_pay7 k0_pay8 k0_pay9 k0_pay10
  rw [slab_apply]
  simp only [shapeCast_self, mulf_apply, addf_apply, broadcast_apply, logistic_apply, tanh_apply, chan0, chan1, chan2,
    entry33 _ _ slices_S3x3_o0_0_S1x1 _ (0 : Fin 3) (0 : Fin 3) rfl rfl,
    entry33 _ _ slices_S3x3_o0_1_S1x1 _ (0 : Fin 3) (1 : Fin 3) rfl rfl,
    entry33 _ _ slices_S3x3_o0_2_S1x1 _ (0 : Fin 3) (2 : Fin 3) rfl rfl,
    entry33 _ _ slices_S3x3_o1_0_S1x1 _ (1 : Fin 3) (0 : Fin 3) rfl rfl,
    entry33 _ _ slices_S3x3_o1_1_S1x1 _ (1 : Fin 3) (1 : Fin 3) rfl rfl,
    entry33 _ _ slices_S3x3_o1_2_S1x1 _ (1 : Fin 3) (2 : Fin 3) rfl rfl,
    entry33 _ _ slices_S3x3_o2_0_S1x1 _ (2 : Fin 3) (0 : Fin 3) rfl rfl,
    entry33 _ _ slices_S3x3_o2_1_S1x1 _ (2 : Fin 3) (1 : Fin 3) rfl rfl,
    entry33 _ _ slices_S3x3_o2_2_S1x1 _ (2 : Fin 3) (2 : Fin 3) rfl rfl,
    entry31 _ _ slices_S3x1_o0_0_S1x1 _ (0 : Fin 3) rfl rfl,
    entry31 _ _ slices_S3x1_o1_0_S1x1 _ (1 : Fin 3) rfl rfl,
    entry31 _ _ slices_S3x1_o2_0_S1x1 _ (2 : Fin 3) rfl rfl]
  rfl

/-! ## The three slabs tile the block -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- A slab's position (b, 0, t) sits in the block at (b, c, t): its rectangle starts at channel `c`. -/
theorem slab_emb (off : Fin 3 → Nat) (inb : ∀ a, off a + S1024x1x128.size a ≤ S1024x3x128.size a) (c : Fin 3)
    (h0 : off 0 = 0) (h1 : off 1 = c.val) (h2 : off 2 = 0) (b : Fin 1024) (t : Fin 128) :
    (Rect.unit (s := S1024x3x128) off S1024x1x128.size inb).emb (ix3 b (0 : Fin 1) t) = ix3 b c t :=
  funext fun a => Fin.ext (by
    rw [Rect.emb_apply]
    match a with
    | ⟨0, _⟩ => show off 0 + 1 * b.val = b.val; omega
    | ⟨1, _⟩ => show off 1 + 1 * 0 = c.val; omega
    | ⟨2, _⟩ => show off 2 + 1 * t.val = t.val; omega)

/-- A slab index is (b, 0, t). -/
theorem slab_idx (x : S1024x1x128.Idx) : ∃ (b : Fin 1024) (t : Fin 128), x = ix3 b (0 : Fin 1) t := by
  have hlt : (x 1).val < 1 := (x 1).isLt
  refine ⟨x 0, x 2, funext fun d => Fin.ext ?_⟩
  match d with
  | ⟨0, _⟩ => rfl
  | ⟨1, _⟩ => show (x 1).val = 0; omega
  | ⟨2, _⟩ => rfl

/-- The block after the body's three stores is `blockFn` of the loaded values. -/
theorem out_eq : out0_7 (F := Ideal) x0 wi wg wo bi bg bo = blockFn x0 wi wg wo bi bg bo := by
  unfold out0_7
  simp only [View.ld_unit_zero (S := S1024x3x128) zeros3, View.ld_unit_zero (S := S3x3) zeros2,
    View.ld_unit_zero (S := S3x1) zeros2]
  funext y
  refine View.canon_apply_of_pieces (blockFn x0 wi wg wo bi bg bo) _ ?_ y (cover0_7 _ _ _ y)
  intro p hp
  rcases List.mem_cons.mp hp with rfl | hp
  · intro x
    obtain ⟨b, t, rfl⟩ := slab_idx x
    exact (slab2_apply x0 wi wg wo bi bg bo b t).trans
      (congrArg (blockFn x0 wi wg wo bi bg bo) (slab_emb ![0, 2, 0] inb_S1024x3x128_S1024x1x128_0_2_0 2 rfl rfl rfl b t)).symm
  rcases List.mem_cons.mp hp with rfl | hp
  · intro x
    obtain ⟨b, t, rfl⟩ := slab_idx x
    exact (slab1_apply x0 wi wg wo bi bg bo b t).trans
      (congrArg (blockFn x0 wi wg wo bi bg bo) (slab_emb ![0, 1, 0] inb_S1024x3x128_S1024x1x128_0_1_0 1 rfl rfl rfl b t)).symm
  rcases List.mem_cons.mp hp with rfl | hp
  · intro x
    obtain ⟨b, t, rfl⟩ := slab_idx x
    exact (slab0_apply x0 wi wg wo bi bg bo b t).trans
      (congrArg (blockFn x0 wi wg wo bi bg bo) (slab_emb ![0, 0, 0] inb_S1024x3x128_S1024x1x128_0_0_0 0 rfl rfl rfl b t)).symm
  · exact absurd hp List.not_mem_nil

/-! ## A block of the cell array

When the loaded block is rows 1024·T … 1024·T + 1023 of the input, the weight slices are the gates' rows of the
stacked matrix and the bias columns the gates' rows of the summed bias, the block after the body is the same
rows of the cell array `Cert.Lstm.G`. -/

theorem block_eq (x : SX.Idx → EReal) (W : SW.Idx → EReal) (bih bhh : SB.Idx → EReal) (T : Nat)
    (hx : ∀ (b : Fin 1024) (k : Fin 3) (s : Fin 128) (B : Fin 65536), B.val = T * 1024 + b.val → x0 (ix3 b k s) = x (ix3 B k s))
    (hwi : ∀ r k : Fin 3, wi (ix2 r k) = W (ix2 (rowI r) k))
    (hwg : ∀ r k : Fin 3, wg (ix2 r k) = W (ix2 (rowG r) k))
    (hwo : ∀ r k : Fin 3, wo (ix2 r k) = W (ix2 (rowO r) k))
    (hbi : ∀ r : Fin 3, bi (ix2 r (0 : Fin 1)) = bih (ix1 (rowI r)) + bhh (ix1 (rowI r)))
    (hbg : ∀ r : Fin 3, bg (ix2 r (0 : Fin 1)) = bih (ix1 (rowG r)) + bhh (ix1 (rowG r)))
    (hbo : ∀ r : Fin 3, bo (ix2 r (0 : Fin 1)) = bih (ix1 (rowO r)) + bhh (ix1 (rowO r)))
    (y : S1024x3x128.Idx) (i : SX.Idx) (h0 : (i 0).val = T * 1024 + (y 0).val) (h1 : (i 1).val = (y 1).val)
    (h2 : (i 2).val = (y 2).val) :
    blockFn x0 wi wg wo bi bg bo y = G x W bih bhh i := by
  obtain ⟨b, c, s, rfl⟩ : ∃ (b : Fin 1024) (c : Fin 3) (s : Fin 128), y = ix3 b c s := ⟨y 0, y 1, y 2, eq_ix3 y⟩
  obtain ⟨B, c', s', rfl⟩ : ∃ (B : Fin 65536) (c' : Fin 3) (s' : Fin 128), i = ix3 B c' s' := ⟨i 0, i 1, i 2, eq_ix3 i⟩
  obtain rfl : c' = c := Fin.ext h1
  obtain rfl : s' = s := Fin.ext h2
  have hB : B.val = T * 1024 + b.val := h0
  show cell (gateAt wi bi x0 c' b s') (gateAt wg bg x0 c' b s') (gateAt wo bo x0 c' b s')
    = cell (pre x W bih bhh (rowI c') B s') (pre x W bih bhh (rowG c') B s') (pre x W bih bhh (rowO c') B s')
  unfold gateAt pre
  rw [hwi, hwi, hwi, hwg, hwg, hwg, hwo, hwo, hwo, hbi, hbg, hbo, hx b 0 s' B hB, hx b 1 s' B hB, hx b 2 s' B hB]

end Cert.KernelIdeal.Body

end
-- ==== Proof.Entry.lean ====
/-
  What the region finds in the arrays its small windows stage. Before the call the host code adds the two bias
  vectors, cuts rows 0–2, 6–8 and 9–11 (the input, cell and output gates) out of the stacked weight matrix, and
  cuts the same three ranges out of the summed bias and lays each as a 3×1 column. Entry (r, k) of a gate's
  weight slice is the stacked matrix's entry (row of that gate for unit r, k); entry (r, 0) of its bias column is
  the sum of the two biases at that row.
-/
import proofs.«105344_j25434796327365_2_alg».proof.Proof.Gen.KernelIdeal.Frame
import proofs.«105344_j25434796327365_2_alg».proof.Proof.Cell
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.ShloMosaic.StableHlo Idealize.SL.Sem Cert.Lstm

/-! ## Three rows cut out of the stacked matrix and out of the summed bias -/

/-- Rows `o`, `o + 1`, `o + 2` cut out of the stacked matrix: entry (r, k) is the matrix's entry (o + r, k). -/
theorem rows_apply (W : FVec Ideal S12x3 .f32) (off : Fin 2 → Nat) (h : S12x3.Slices off S3x3) (R : Fin 3 → Fin 12)
    (h0 : ∀ r, (R r).val = off 0 + r.val) (h1 : off 1 = 0) (r k : Fin 3) :
    extractStridedSlice S3x3 off W h (ix2 r k) = W (ix2 (R r) k) :=
  extractStridedSlice_apply off W h (ix2 r k) (ix2 (R r) k) (fun a => by
    match a with
    | ⟨0, _⟩ => show (R r).val = off 0 + r.val; exact h0 r
    | ⟨1, _⟩ => show k.val = off 1 + k.val; omega)

/-- The same three rows cut out of the sum of the two bias vectors and laid as a column: entry (r, 0) is the sum of
    the two biases at o + r. -/
theorem column_apply (b3 b4 : FVec Ideal S12 .f32) (off : Fin 1 → Nat) (h : S12.Slices off S3) (R : Fin 3 → Fin 12)
    (h0 : ∀ r, (R r).val = off 0 + r.val) (r : Fin 3) :
    shapeCast S3x1 (extractStridedSlice S3 off (addf b3 b4) h) shapeCasts_S3_S3x1 (ix2 r (0 : Fin 1))
      = b3 (ix1 (R r)) + b4 (ix1 (R r)) := by
  refine (shapeCast_apply _ shapeCasts_S3_S3x1 (ix2 r (0 : Fin 1)) (ix1 r) ?_).trans ?_
  · rw [Shape.rowMajor_val_one, Shape.rowMajor_val_two]
    show r.val = r.val * 1 + 0
    omega
  · exact extractStridedSlice_apply off (addf b3 b4) h (ix1 r) (ix1 (R r)) (fun a => by
      match a with
      | ⟨0, _⟩ => show (R r).val = off 0 + r.val; exact h0 r)

theorem rowI_val (r : Fin 3) : (rowI r).val = (![0, 0] : Fin 2 → Nat) 0 + r.val := by show r.val = 0 + r.val; omega
theorem rowG_val (r : Fin 3) : (rowG r).val = (![6, 0] : Fin 2 → Nat) 0 + r.val := rfl
theorem rowO_val (r : Fin 3) : (rowO r).val = (![9, 0] : Fin 2 → Nat) 0 + r.val := rfl
theorem rowI_val1 (r : Fin 3) : (rowI r).val = (![0] : Fin 1 → Nat) 0 + r.val := by show r.val = 0 + r.val; omega
theorem rowG_val1 (r : Fin 3) : (rowG r).val = (![6] : Fin 1 → Nat) 0 + r.val := rfl
theorem rowO_val1 (r : Fin 3) : (rowO r).val = (![9] : Fin 1 → Nat) 0 + r.val := rfl

/-! ## The arrays at region entry -/

variable (m : (ℓ : Loc nD τ sig) → Buf (Elt Ideal) ℓ) (c : Dev nD)

/-- The input gate's weight slice as the region finds it. -/
theorem V_wI : (V m c main_v1 : S3x3.Idx → EReal)
    = extractStridedSlice S3x3 ![0, 0] (m ((c : Thread nD τ).loc main_arg1)) slices_S12x3_S3x3_0_0 := by
  unfold V; after_results

/-- The input gate's bias column as the region finds it. -/
theorem V_bI : (V m c main_v5 : S3x1.Idx → EReal)
    = shapeCast S3x1 (extractStridedSlice S3 ![0] (addf (F := Ideal) (s := S12) (φ := .f32) (m ((c : Thread nD τ).loc main_arg3)) (m ((c : Thread nD τ).loc main_arg4))) slices_S12_S3_0) shapeCasts_S3_S3x1 := by
  unfold V; after_results; rfl

/-- The cell gate's weight slice as the region finds it. -/
theorem V_wG : (V m c main_v2 : S3x3.Idx → EReal)
    = extractStridedSlice S3x3 ![6, 0] (m ((c : Thread nD τ).loc main_arg1)) slices_S12x3_S3x3_6_0 := by
  unfold V; after_results

/-- The cell gate's bias column as the region finds it. -/
theorem V_bG : (V m c main_v7 : S3x1.Idx → EReal)
    = shapeCast S3x1 (extractStridedSlice S3 ![6] (addf (F := Ideal) (s := S12) (φ := .f32) (m ((c : Thread nD τ).loc main_arg3)) (m ((c : Thread nD τ).loc main_arg4))) slices_S12_S3_6) shapeCasts_S3_S3x1 := by
  unfold V; after_results; rfl

/-- The output gate's weight slice as the region finds it. -/
theorem V_wO : (V m c main_v3 : S3x3.Idx → EReal)
    = extractStridedSlice S3x3 ![9, 0] (m ((c : Thread nD τ).loc main_arg1)) slices_S12x3_S3x3_9_0 := by
  unfold V; after_results

/-- The output gate's bias column as the region finds it. -/
theorem V_bO : (V m c main_v9 : S3x1.Idx → EReal)
    = shapeCast S3x1 (extractStridedSlice S3 ![9] (addf (F := Ideal) (s := S12) (φ := .f32) (m ((c : Thread nD τ).loc main_arg3)) (m ((c : Thread nD τ).loc main_arg4))) slices_S12_S3_9) shapeCasts_S3_S3x1 := by
  unfold V; after_results; rfl

end Cert.KernelIdeal.Entry

end
-- ==== Proof.Final.lean ====
/-
  From blocks to the whole array. The grid has 64 points; at point t the input window holds rows
  1024·t … 1024·t + 1023 of the input, the six small windows hold their whole arrays at every point, and the
  output window's block is the same 1024 rows of the result. What point t writes back is therefore rows
  1024·t … of the cell array `Cert.Lstm.G` of the arguments, the 64 blocks cover the result, and the result
  after the run is `G` of the arguments.
-/
import proofs.«105344_j25434796327365_2_alg».proof.Proof.Gen.KernelIdeal.Value
import proofs.«105344_j25434796327365_2_alg».proof.Proof.Body
import proofs.«105344_j25434796327365_2_alg».proof.Proof.Entry

noncomputable section

namespace Cert.KernelIdeal.Final

open Cert.KernelIdeal Cert.KernelIdeal.Gen Idealize.ShloMosaic Idealize.ShloMosaic.TcCoe Idealize.ShloMosaic.ValueIdx
open Idealize.SL.Sem Cert.Lstm
open Idealize.ShloMosaic.Pipeline (Dat)

variable (m : (ℓ : Loc nD τ sig) → Buf (Elt Ideal) ℓ) (ρ : Dev nD → PrngReg)

/-- The block index maps over the grid: the input's and the result's blocks move along the rows with the
    point, the small windows' block is always the first (and only) one. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The windows' blocks at a point -/

/-- The input window's block at point `t` is rows 1024·t … of the input argument. -/
theorem xblk_apply (c : Dev nD) (t : Fin cfg0.N) (b : Fin 1024) (k : Fin 3) (s : Fin 128) (B : Fin 65536)
    (hB : B.val = t.val * 1024 + b.val) :
    (iblk m c 0 t : Vec Ideal S1024x3x128 .f32) (ix3 b k s)
      = (m ((c : Thread nD τ).loc main_arg0) : S65536x3x128.Idx → EReal) (ix3 B k s) := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * b.val = B.val; rw [e0, hB]; omega
  | ⟨1, _⟩ => show win0_0.index t 1 * 3 + 1 * k.val = k.val; rw [e1]; omega
  | ⟨2, _⟩ => show win0_0.index t 2 * 128 + 1 * s.val = s.val; rw [e2]; omega

/-- Window 1's block is its whole array at every point. -/
theorem blk1_apply (c : Dev nD) (t : Fin cfg0.N) (y : S3x3.Idx) :
    (iblk m c 1 t : Vec Ideal S3x3 .f32) y = (V m c main_v1 : S3x3.Idx → EReal) y := by
  obtain ⟨-, -, -, -, -, -, e0, e1, -⟩ := idx_facts t
  unfold iblk
  rw [View.read_apply]
  show V m c main_v1 _ = V m c main_v1 _
  congr 1
  funext a
  apply Fin.ext
  match a with
  | ⟨0, _⟩ => show win0_1.index t 0 * 3 + 1 * (y 0).val = (y 0).val; rw [e0]; omega
  | ⟨1, _⟩ => show win0_1.index t 1 * 3 + 1 * (y 1).val = (y 1).val; rw [e1]; omega

/-- Window 2's block is its whole array at every point. -/
theorem blk2_apply (c : Dev nD) (t : Fin cfg0.N) (y : S3x3.Idx) :
    (iblk m c 2 t : Vec Ideal S3x3 .f32) y = (V m c main_v2 : S3x3.Idx → EReal) y := by
  obtain ⟨-, -, -, -, -, -, -, -, e0, e1, -⟩ := idx_facts t
  unfold iblk
  rw [View.read_apply]
  show V m c main_v2 _ = V m c main_v2 _
  congr 1
  funext a
  apply Fin.ext
  match a with
  | ⟨0, _⟩ => show win0_2.index t 0 * 3 + 1 * (y 0).val = (y 0).val; rw [e0]; omega
  | ⟨1, _⟩ => show win0_2.index t 1 * 3 + 1 * (y 1).val = (y 1).val; rw [e1]; omega

/-- Window 3's block is its whole array at every point. -/
theorem blk3_apply (c : Dev nD) (t : Fin cfg0.N) (y : S3x3.Idx) :
    (iblk m c 3 t : Vec Ideal S3x3 .f32) y = (V m c main_v3 : S3x3.Idx → EReal) y := by
  obtain ⟨-, -, -, -, -, -, -, -, -, -, e0, e1, -⟩ := idx_facts t
  unfold iblk
  rw [View.read_apply]
  show V m c main_v3 _ = V m c main_v3 _
  congr 1
  funext a
  apply Fin.ext
  match a with
  | ⟨0, _⟩ => show win0_3.index t 0 * 3 + 1 * (y 0).val = (y 0).val; rw [e0]; omega
  | ⟨1, _⟩ => show win0_3.index t 1 * 3 + 1 * (y 1).val = (y 1).val; rw [e1]; omega

/-- Window 4's block is its whole array at every point. -/
theorem blk4_apply (c : Dev nD) (t : Fin cfg0.N) (y : S3x1.Idx) :
    (iblk m c 4 t : Vec Ideal S3x1 .f32) y = (V m c main_v5 : S3x1.Idx → EReal) y := by
  obtain ⟨-, -, -, -, -, -, -, -, -, -, -, -, e0, e1, -⟩ := idx_facts t
  unfold iblk
  rw [View.read_apply]
  show V m c main_v5 _ = V m c main_v5 _
  congr 1
  funext a
  apply Fin.ext
  match a with
  | ⟨0, _⟩ => show win0_4.index t 0 * 3 + 1 * (y 0).val = (y 0).val; rw [e0]; omega
  | ⟨1, _⟩ => show win0_4.index t 1 * 1 + 1 * (y 1).val = (y 1).val; rw [e1]; omega

/-- Window 5's block is its whole array at every point. -/
theorem blk5_apply (c : Dev nD) (t : Fin cfg0.N) (y : S3x1.Idx) :
    (iblk m c 5 t : Vec Ideal S3x1 .f32) y = (V m c main_v7 : S3x1.Idx → EReal) y := by
  obtain ⟨-, -, -, -, -, -, -, -, -, -, -, -, -, -, e0, e1, -⟩ := idx_facts t
  unfold iblk
  rw [View.read_apply]
  show V m c main_v7 _ = V m c main_v7 _
  congr 1
  funext a
  apply Fin.ext
  match a with
  | ⟨0, _⟩ => show win0_5.index t 0 * 3 + 1 * (y 0).val = (y 0).val; rw [e0]; omega
  | ⟨1, _⟩ => show win0_5.index t 1 * 1 + 1 * (y 1).val = (y 1).val; rw [e1]; omega

/-- Window 6's block is its whole array at every point. -/
theorem blk6_apply (c : Dev nD) (t : Fin cfg0.N) (y : S3x1.Idx) :
    (iblk m c 6 t : Vec Ideal S3x1 .f32) y = (V m c main_v9 : S3x1.Idx → EReal) y := by
  obtain ⟨-, -, -, -, -, -, -, -, -, -, -, -, -, -, -, -, e0, e1⟩ := idx_facts t
  unfold iblk
  rw [View.read_apply]
  show V m c main_v9 _ = V m c main_v9 _
  congr 1
  funext a
  apply Fin.ext
  match a with
  | ⟨0, _⟩ => show win0_6.index t 0 * 3 + 1 * (y 0).val = (y 0).val; rw [e0]; omega
  | ⟨1, _⟩ => show win0_6.index t 1 * 1 + 1 * (y 1).val = (y 1).val; rw [e1]; omega

/-! ## What a point writes back, the cover, the array after the run -/

/-- The cell array of the arguments on core `c`. -/
abbrev result (c : Dev nD) : S65536x3x128.Idx → EReal :=
  G (m ((c : Thread nD τ).loc main_arg0)) (m ((c : Thread nD τ).loc main_arg1)) (m ((c : Thread nD τ).loc main_arg3))
    (m ((c : Thread nD τ).loc main_arg4))

/-- Point `t` writes back block `t` of the cell array. -/
theorem flushed_eq (c : Dev nD) (t : Fin cfg0.N) :
    (dats m 0 c).flushed 7 t = ((cfg0.win 7).blk t).view.read (Elt Ideal) (result m c) := by
  obtain ⟨-, -, -, e0, e1, e2, -⟩ := idx_facts t
  rw [Value.flushed7, Body.out_eq (iblk m c 0 t) (iblk m c 1 t) (iblk m c 2 t) (iblk m c 3 t) (iblk m c 4 t) (iblk m c 5 t) (iblk m c 6 t)]
  funext y
  rw [View.read_apply]
  refine Body.block_eq (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg3))
    (m ((c : Thread nD τ).loc main_arg4)) t.val
    (fun b k s B hB => xblk_apply m c t b k s B hB)
    (fun r k => (blk1_apply m c t (ix2 r k)).trans ((congrFun (Entry.V_wI m c) _).trans
      (Entry.rows_apply _ ![0, 0] slices_S12x3_S3x3_0_0 rowI Entry.rowI_val rfl r k)))
    (fun r k => (blk2_apply m c t (ix2 r k)).trans ((congrFun (Entry.V_wG m c) _).trans
      (Entry.rows_apply _ ![6, 0] slices_S12x3_S3x3_6_0 rowG Entry.rowG_val rfl r k)))
    (fun r k => (blk3_apply m c t (ix2 r k)).trans ((congrFun (Entry.V_wO m c) _).trans
      (Entry.rows_apply _ ![9, 0] slices_S12x3_S3x3_9_0 rowO Entry.rowO_val rfl r k)))
    (fun r => (blk4_apply m c t (ix2 r (0 : Fin 1))).trans ((congrFun (Entry.V_bI m c) _).trans
      (Entry.column_apply _ _ ![0] slices_S12_S3_0 rowI Entry.rowI_val1 r)))
    (fun r => (blk5_apply m c t (ix2 r (0 : Fin 1))).trans ((congrFun (Entry.V_bG m c) _).trans
      (Entry.column_apply _ _ ![6] slices_S12_S3_6 rowG Entry.rowG_val1 r)))
    (fun r => (blk6_apply m c t (ix2 r (0 : Fin 1))).trans ((congrFun (Entry.V_bO m c) _).trans
      (Entry.column_apply _ _ ![9] slices_S12_S3_9 rowO Entry.rowO_val1 r)))
    y (((cfg0.win 7).blk t).view.emb y) ?_ ?_ ?_
  · show win0_7.index t 0 * 1024 + 1 * (y 0).val = t.val * 1024 + (y 0).val
    rw [e0]; omega
  · show win0_7.index t 1 * 3 + 1 * (y 1).val = (y 1).val
    rw [e1]; omega
  · show win0_7.index t 2 * 128 + 1 * (y 2).val = (y 2).val
    rw [e2]; omega

/-- An index of the result is in point `t`'s block iff each coordinate is in the block's range on its axis. -/
theorem mem_blk (t : Fin cfg0.N) (i : S65536x3x128.Idx) :
    i ∈ ((cfg0.win 7).blk t).view.set ↔ ∀ a : Fin 3, win0_7.index t a * S1024x3x128.size a ≤ (i a).val
      ∧ (i a).val < win0_7.index t a * S1024x3x128.size a + S1024x3x128.size a := by
  show i ∈ ((View.whole main_v10).slice (win0_7.rect t)).set ↔ _
  rw [View.set_slice_whole, Rect.mem_set_unit]
  exact Iff.rfl

/-- Every row of the result lies in the block of the point numbered row / 1024. -/
theorem cover (i : S65536x3x128.Idx) :
    ∃ t : Fin cfg0.N, (cfg0.win 7).flush t = true ∧ i ∈ ((cfg0.win 7).blk t).view.set := by
  have hN : cfg0.N = 64 := N_0
  have hi0 : (i 0).val < 65536 := (i 0).isLt
  have hi1 : (i 1).val < 3 := (i 1).isLt
  have hi2 : (i 2).val < 128 := (i 2).isLt
  let t : Fin cfg0.N := ⟨(i 0).val / 1024, by rw [hN]; omega⟩
  have ht : t.val = (i 0).val / 1024 := rfl
  obtain ⟨-, -, -, e0, e1, e2, -⟩ := idx_facts t
  refine ⟨t, flush0_7 t, ?_⟩
  rw [mem_blk]
  intro a
  match a with
  | ⟨0, _⟩ => show win0_7.index t 0 * 1024 ≤ (i 0).val ∧ (i 0).val < win0_7.index t 0 * 1024 + 1024; rw [e0, ht]; omega
  | ⟨1, _⟩ => show win0_7.index t 1 * 3 ≤ (i 1).val ∧ (i 1).val < win0_7.index t 1 * 3 + 3; rw [e1]; omega
  | ⟨2, _⟩ => show win0_7.index t 2 * 128 ≤ (i 2).val ∧ (i 2).val < win0_7.index t 2 * 128 + 128; rw [e2]; omega

/-- The result array after the run is the cell array of the arguments. -/
theorem final (c : Dev nD) : (dats m 0 c).arrAt 7 cfg0.N = result m c :=
  (dats m 0 c).arrAt_eq_of_cover 7 (result m c) (fun t _ => flushed_eq m c t) cover

/-- The kernel's run, read: the result at the cell array of the arguments, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.lean ====
/-
  The certificate's five claims for the LSTM cell kernel against its jnp reference.

  Both programs compute, at batch row b, hidden unit c and position t, the output of one LSTM cell step from a
  zero state: h = σ(o) · tanh(σ(i) · tanh(g)) with i, g, o the affine forms of the three input channels at
  (b, ·, t) built from rows c, 6 + c, 9 + c of the stacked weights and biases (`Cert.Lstm.G`). The kernel forms
  each pre-activation as scalar-times-channel products summed left to right plus the bias (b_ih + b_hh) the host
  added beforehand, and applies the logistic operation; the reference contracts the transposed input against the
  whole stacked matrix, adds b_ih then b_hh, and spells the logistic function 1 / (1 + e^(-z)). On the extended
  reals the two agree with no finiteness assumption: products commute, sums reassociate, and the logistic
  operation is that quotient by definition. The frames are the generated ones; the idealization rewrote nothing.
-/
import proofs.«105344_j25434796327365_2_alg».proof.Defs
import proofs.«105344_j25434796327365_2_alg».proof.Proof.Gen.Kernel
import proofs.«105344_j25434796327365_2_alg».proof.Proof.Gen.Kernel.Skeleton
import proofs.«105344_j25434796327365_2_alg».proof.Proof.Gen.Kernel.Launch
import proofs.«105344_j25434796327365_2_alg».proof.Proof.Gen.Kernel.Points
import proofs.«105344_j25434796327365_2_alg».proof.Proof.Gen.Kernel.Frame
import proofs.«105344_j25434796327365_2_alg».proof.Proof.Gen.KernelIdeal
import proofs.«105344_j25434796327365_2_alg».proof.Proof.Gen.KernelIdeal.Skeleton
import proofs.«105344_j25434796327365_2_alg».proof.Proof.Gen.KernelIdeal.Launch
import proofs.«105344_j25434796327365_2_alg».proof.Proof.Gen.KernelIdeal.Points
import proofs.«105344_j25434796327365_2_alg».proof.Proof.Gen.KernelIdeal.Frame
import proofs.«105344_j25434796327365_2_alg».proof.Proof.Gen.KernelIdeal.Value
import proofs.«105344_j25434796327365_2_alg».proof.Proof.Gen.ReferenceIdeal
import proofs.«105344_j25434796327365_2_alg».proof.Proof.Gen.ReferenceIdeal.Run
import proofs.«105344_j25434796327365_2_alg».proof.Proof.Gen.ReferenceIdeal.Read
import proofs.«105344_j25434796327365_2_alg».proof.Proof.Gen.Pre_finite_inputs
import proofs.«105344_j25434796327365_2_alg».proof.Proof.Cell
import proofs.«105344_j25434796327365_2_alg».proof.Proof.RefValue
import proofs.«105344_j25434796327365_2_alg».proof.Proof.Body
import proofs.«105344_j25434796327365_2_alg».proof.Proof.Entry
import proofs.«105344_j25434796327365_2_alg».proof.Proof.Final
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is straight-line host code: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, the kernel ends with the cell array of its arguments and the
    reference with the cell array of its own: the same array. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
